-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S2x1600000 : Shape := ⟨2, ![2, 1600000]⟩
abbrev S400000x128 : Shape := ⟨2, ![400000, 128]⟩
abbrev S2x400000 : Shape := ⟨2, ![2, 400000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S400000x128 : S_.BroadcastsInDim S400000x128 (![] : Fin 0 → Fin S400000x128.rank)
  reducesTo_S400000x128_S_d0_1 : S400000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_arg13 : FVec F S128x256 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg13
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x256 .f32) (main_arg14 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x256 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : FVec F S1600000x128 .f32) (main_arg2 : IVec S2x1600000 32) (main_arg3 : FVec F S400000x128 .f32) (main_arg4 : IVec S2x400000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x256 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S400000x128 .f32 := Host.absf main_arg3
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S1600000x128 : Shape := ⟨2, ![1600000, 128]⟩
abbrev S2x1600000 : Shape := ⟨2, ![2, 1600000]⟩
abbrev S400000x128 : Shape := ⟨2, ![400000, 128]⟩
abbrev S2x400000 : Shape := ⟨2, ![2, 400000]⟩
abbrev S128x128 : Shape := ⟨2, ![128, 128]⟩
abbrev S128 : Shape := ⟨1, ![128]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x400000 : Shape := ⟨2, ![1, 400000]⟩
abbrev S400000 : Shape := ⟨1, ![400000]⟩
abbrev S400000x1 : Shape := ⟨2, ![400000, 1]⟩
abbrev S4000x128 : Shape := ⟨2, ![4000, 128]⟩
abbrev S1x128 : Shape := ⟨2, ![1, 128]⟩

abbrev nBuf : Space → Nat
  | .hbm => 44
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S2x1600000, .i32⟩
  | .hbm, ⟨3, _⟩ => ⟨S400000x128, .f32⟩
  | .hbm, ⟨4, _⟩ => ⟨S2x400000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x256, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x128, .bf16⟩
  | .hbm, ⟨22, _⟩ => ⟨S1x400000, .i32⟩
  | .hbm, ⟨23, _⟩ => ⟨S400000, .i32⟩
  | .hbm, ⟨24, _⟩ => ⟨S_, .f32⟩
  | .hbm, ⟨25, _⟩ => ⟨S100000x128, .f32⟩
  | .hbm, ⟨26, _⟩ => ⟨S400000x1, .i32⟩
  | .hbm, ⟨27, _⟩ => ⟨S100000x128, .f32⟩
  | .hbm, ⟨28, _⟩ => ⟨S100000x128, .bf16⟩
  | .hbm, ⟨29, _⟩ => ⟨S128x128, .bf16⟩
  | .hbm, ⟨30, _⟩ => ⟨S128x128, .bf16⟩
  | .hbm, ⟨31, _⟩ => ⟨S128x128, .bf16⟩
  | .hbm, ⟨32, _⟩ => ⟨S128x128, .bf16⟩
  | .hbm, ⟨33, _⟩ => ⟨S128x128, .bf16⟩
  | .hbm, ⟨34, _⟩ => ⟨S128x128, .bf16⟩
  | .hbm, ⟨35, _⟩ => ⟨S128x128, .bf16⟩
  | .hbm, ⟨36, _⟩ => ⟨S128x128, .bf16⟩
  | .hbm, ⟨37, _⟩ => ⟨S128x128, .f32⟩
  | .hbm, ⟨38, _⟩ => ⟨S128x128, .f32⟩
  | .hbm, ⟨39, _⟩ => ⟨S128x128, .bf16⟩
  | .hbm, ⟨40, _⟩ => ⟨S128x128, .bf16⟩
  | .hbm, ⟨41, _⟩ => ⟨S128x128, .bf16⟩
  | .hbm, ⟨42, _⟩ => ⟨S128x128, .bf16⟩
  | .hbm, ⟨43, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S128x128, .bf16⟩
  | .local _ .vmem, ⟨15, _⟩ => ⟨S128x128, .bf16⟩
  | .local _ .vmem, ⟨16, _⟩ => ⟨S128, .f32⟩
  | .local _ .vmem, ⟨17, _⟩ => ⟨S4000x128, .f32⟩
  | .local _ .vmem, ⟨18, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bitsLt_bf16_f32 : FTy.bits .bf16 < FTy.bits .f32
  slices_S2x400000_S1x400000_1_0 : S2x400000.Slices ![1, 0] S1x400000
  shapeCasts_S1x400000_S400000 : S1x400000.ShapeCasts S400000
  bcast_S400000_S400000x1_0 : S400000.BroadcastsInDim S400000x1 (![0] : Fin 1 → Fin S400000x1.rank)
  transposes_S128x128_S128x128_1_0 : S128x128.Transposes [1, 0] S128x128
  slices_S128x256_S128x128_0_0 : S128x256.Slices ![0, 0] S128x128
  slices_S128x256_S128x128_0_128 : S128x256.Slices ![0, 128] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S100000x128_S1600000x1_S1600000x128_1_0_0_1_wf : ScatterDims.WF S100000x128 S1600000x1 S1600000x128 [1] [0] [0] 1
  scatter_S100000x128_S400000x1_S400000x128_1_0_0_1_wf : ScatterDims.WF S100000x128 S400000x1 S400000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .bf16 = 32 ∨ (Rect.block (s := S100000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x128.size a ≤ S100000x128.size a
  hwx0_14 : ∀ i : grid0.Coords, EltTy.bits .f32 = 32 ∨ (Rect.block (s := S100000x128) S4000x128.size (cc0_transform_14 i) (hinb0_14 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v25) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S4000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S2x1600000 : Shape := ⟨2, ![2, 1600000]⟩
abbrev S400000x128 : Shape := ⟨2, ![400000, 128]⟩
abbrev S2x400000 : Shape := ⟨2, ![2, 400000]⟩
abbrev S128x128 : Shape := ⟨2, ![128, 128]⟩
abbrev S128 : Shape := ⟨1, ![128]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩
abbrev S1x400000 : Shape := ⟨2, ![1, 400000]⟩
abbrev S400000 : Shape := ⟨1, ![400000]⟩
abbrev S400000x1 : Shape := ⟨2, ![400000, 1]⟩
abbrev S100000x256 : Shape := ⟨2, ![100000, 256]⟩
abbrev S256x128 : Shape := ⟨2, ![256, 128]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S2x1600000, .i32⟩
  | .hbm, ⟨3, _⟩ => ⟨S400000x128, .f32⟩
  | .hbm, ⟨4, _⟩ => ⟨S2x400000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x256, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S128x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .i1⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S1x400000, .i32⟩
  | .hbm, ⟨49, _⟩ => ⟨S400000, .i32⟩
  | .hbm, ⟨50, _⟩ => ⟨S_, .f32⟩
  | .hbm, ⟨51, _⟩ => ⟨S100000x128, .f32⟩
  | .hbm, ⟨52, _⟩ => ⟨S400000x1, .i32⟩
  | .hbm, ⟨53, _⟩ => ⟨S100000x128, .f32⟩
  | .hbm, ⟨54, _⟩ => ⟨S128x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .i1⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x256, .f32⟩
  | .hbm, ⟨82, _⟩ => ⟨S256x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S100000x128, .i1⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v10 : Ref sig .tc := ⟨.hbm, 39, rfl⟩
abbrev main_cst_0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_1 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_v28 : Ref sig .tc := ⟨.hbm, 72, rfl⟩
abbrev main_cst_2 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_v42 : Ref sig .tc := ⟨.hbm, 100, rfl⟩
abbrev main_cst_3 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x400000_S1x400000_1_0 : S2x400000.Slices ![1, 0] S1x400000
  shapeCasts_S1x400000_S400000 : S1x400000.ShapeCasts S400000
  bcast_S400000_S400000x1_0 : S400000.BroadcastsInDim S400000x1 (![0] : Fin 1 → Fin S400000x1.rank)
  concatenates_S100000x128_S100000x128_S100000x256_d1 : Shape.Concatenates [S100000x128, S100000x128] S100000x256 1
  transposes_S128x256_S256x128_1_0 : S128x256.Transposes [1, 0] S256x128
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S100000x128_S400000x1_S400000x128_1_0_0_1_wf : ScatterDims.WF S100000x128 S400000x1 S400000x128 [1] [0] [0] 1
  dot_S100000x256_S256x128_S100000x128_1_0_0_1_n_n_wf : DotDims.WF S100000x256 S256x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.NodeUpdate.lean ====
/-
  The node update, as one function of the arrays.

  Each node's new feature is its old feature plus a shifted softplus of a dense layer applied to two branches laid side
  by side; each branch is a dense layer, a shifted softplus and a second dense layer applied to that node's aggregated
  edge features. Everything here is over the extended reals and over rows indexed by plain finite types, so that the
  statements do not depend on how a program lays its arrays out.

  The one law in this file: a contraction over two rows laid side by side (the first 128 coordinates from one row, the
  last 128 from the other) is the sum of the two rows' own contractions. Only the commutative-monoid structure of
  addition is used, so it holds at infinite entries too.
-/
import Idealize.ShloMosaic.PureOps.Ideal
import Idealize.ShloMosaic.PureOps.Ideal.Laws
import Idealize.ShloMosaic.Lib.ValueIdx

noncomputable section

namespace Cert.NodeUpdate

open Idealize.ShloMosaic Idealize.ShloMosaic.ValueIdx

/-- The shifted softplus x ↦ log(1 + eˣ) − c, in the stable arrangement both programs use: max(x, 0) + log1p(exp(−|x − 0|)),
    guarded by a comparison of x − 0 with itself (which never holds on the extended reals), minus the constant c whose
    word is `0x3F317218` (the single-precision value nearest log 2). The zero is kept as the word it is written with. -/
def ssp (x : EReal) : EReal :=
  Scalar.select (Ideal.cmp .one (x - Ideal.ofBits .f32 0x00000000#32) (x - Ideal.ofBits .f32 0x00000000#32))
      (x + Ideal.ofBits .f32 0x00000000#32)
      (max x (Ideal.ofBits .f32 0x00000000#32)
        + Ideal.log1p (Ideal.exp (Ideal.ofBits .f32 0x00000000#32
            - max (x - Ideal.ofBits .f32 0x00000000#32) (-(x - Ideal.ofBits .f32 0x00000000#32)))))
    - Ideal.ofBits .f32 0x3F317218#32

/-- The same function with the inner negation written as a negation rather than as a difference from zero, and the
    guard as the unordered twin of the comparison: on the extended reals 0 − y = −y and nothing is unordered. -/
theorem ssp_neg_form (x : EReal) :
    Scalar.select (Ideal.cmp .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32))))))
      - Ideal.ofBits .f32 0x3F317218#32 = ssp x := by
  unfold ssp
  rw [Ideal.ofBits_zero_f32, zero_sub]
  rfl

/-- A dense layer: the row x against the matrix W (input coordinate first), plus the bias. -/
def layer {K C : Nat} (W : Fin K → Fin C → EReal) (b : Fin C → EReal) (x : Fin K → EReal) (c : Fin C) : EReal :=
  (∑ k : Fin K, x k * W k c) + b c

/-- One branch: a dense layer, the shifted softplus, a second dense layer. -/
def branch {K H C : Nat} (W1 : Fin K → Fin H → EReal) (b1 : Fin H → EReal) (W2 : Fin H → Fin C → EReal) (b2 : Fin C → EReal)
    (x : Fin K → EReal) : Fin C → EReal :=
  layer W2 b2 fun h => ssp (layer W1 b1 x h)

/-- The pre-activation of the last layer with its matrix given as two halves, one per branch. -/
def joined {A B C : Nat} (Wa : Fin A → Fin C → EReal) (Wb : Fin B → Fin C → EReal) (bc : Fin C → EReal)
    (u : Fin A → EReal) (w : Fin B → EReal) (c : Fin C) : EReal :=
  ((∑ j : Fin A, u j * Wa j c) + ∑ j : Fin B, w j * Wb j c) + bc c

/-- A contraction over two rows laid side by side is the sum of the two rows' contractions. -/
theorem sum_sideBySide {A B : Nat} (f : Fin (A + B) → EReal) :
    ∑ k : Fin (A + B), f k = (∑ j : Fin A, f (Fin.castAdd B j)) + ∑ j : Fin B, f (Fin.natAdd A j) :=
  Fin.sum_univ_add f

/-- The node update at output coordinate c: the node's own row v, its two aggregated rows a and h. -/
def node (W1 : Fin 128 → Fin 128 → EReal) (b1 : Fin 128 → EReal) (W2 : Fin 128 → Fin 128 → EReal) (b2 : Fin 128 → EReal)
    (W1h : Fin 128 → Fin 128 → EReal) (b1h : Fin 128 → EReal) (W2h : Fin 128 → Fin 128 → EReal) (b2h : Fin 128 → EReal)
    (Wa Wb : Fin 128 → Fin 128 → EReal) (bc : Fin 128 → EReal)
    (v a h : Fin 128 → EReal) (c : Fin 128) : EReal :=
  v c + ssp (joined Wa Wb bc (branch W1 b1 W2 b2 a) (branch W1h b1h W2h b2h h) c)

/-- Entry (n, c) of the result: the node update of node n at coordinate c. The weight matrices are stored output
    coordinate first, the last one [128, 256] with the first branch's columns first; `agg` and `aggh` are the two
    aggregated arrays, whatever produced them. -/
def entry (v agg aggh : (⟨2, ![100000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W1h : (⟨2, ![128, 128]⟩ : Shape).Idx → EReal) (b1h : (⟨1, ![128]⟩ : Shape).Idx → EReal)
    (W2h : (⟨2, ![128, 128]⟩ : Shape).Idx → EReal) (b2h : (⟨1, ![128]⟩ : Shape).Idx → EReal)
    (Wc : (⟨2, ![128, 256]⟩ : Shape).Idx → EReal) (bc : (⟨1, ![128]⟩ : Shape).Idx → EReal)
    (n : Fin 100000) (c : Fin 128) : EReal :=
  node (fun l k => W1 (ix2 k l)) (fun k => b1 (ix1 k)) (fun k j => W2 (ix2 j k)) (fun j => b2 (ix1 j))
    (fun l k => W1h (ix2 k l)) (fun k => b1h (ix1 k)) (fun k j => W2h (ix2 j k)) (fun j => b2h (ix1 j))
    (fun j c => Wc (ix2 c (Fin.castAdd 128 j))) (fun j c => Wc (ix2 c (Fin.natAdd 128 j))) (fun c => bc (ix1 c))
    (fun c => v (ix2 n c)) (fun l => agg (ix2 n l)) (fun l => aggh (ix2 n l)) c

/-- The whole result array, index by index. -/
def G (v agg aggh : (⟨2, ![100000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W1h : (⟨2, ![128, 128]⟩ : Shape).Idx → EReal) (b1h : (⟨1, ![128]⟩ : Shape).Idx → EReal)
    (W2h : (⟨2, ![128, 128]⟩ : Shape).Idx → EReal) (b2h : (⟨1, ![128]⟩ : Shape).Idx → EReal)
    (Wc : (⟨2, ![128, 256]⟩ : Shape).Idx → EReal) (bc : (⟨1, ![128]⟩ : Shape).Idx → EReal) :
    (⟨2, ![100000, 128]⟩ : Shape).Idx → EReal := fun i =>
  entry v agg aggh W1 b1 W2 b2 W1h b1h W2h b2h Wc bc (i 0) (i 1)

theorem G_ix2 (v agg aggh : (⟨2, ![100000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W1h : (⟨2, ![128, 128]⟩ : Shape).Idx → EReal) (b1h : (⟨1, ![128]⟩ : Shape).Idx → EReal)
    (W2h : (⟨2, ![128, 128]⟩ : Shape).Idx → EReal) (b2h : (⟨1, ![128]⟩ : Shape).Idx → EReal)
    (Wc : (⟨2, ![128, 256]⟩ : Shape).Idx → EReal) (bc : (⟨1, ![128]⟩ : Shape).Idx → EReal)
    (n : Fin 100000) (c : Fin 128) :
    G v agg aggh W1 b1 W2 b2 W1h b1h W2h b2h Wc bc (ix2 n c) = entry v agg aggh W1 b1 W2 b2 W1h b1h W2h b2h Wc bc n c := rfl

end Cert.NodeUpdate

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.BodyValue.lean ====
/-
  What one grid point's body computes, entry by entry.

  The body loads a block of 4000 node rows, the matching blocks of the two aggregated arrays, and every weight matrix
  and bias whole. Each matrix product is a block product into a zero accumulator, so its entry (p, q) is the sum over k
  of the left block's (p, k) entry times the right block's (k, q) entry; each bias is a row laid over all 4000 rows;
  the activations are pointwise. Hence entry (p, q) of the stored block is the node update of row p of the three row
  blocks at coordinate q, with the weight blocks read input coordinate first, as they are stored.
-/
import proofs.«129589_j6975026889058_2_alg».proof.Proof.Gen.KernelIdeal.Skeleton
import proofs.«129589_j6975026889058_2_alg».proof.Proof.NodeUpdate
import proofs.«129589_j6975026889058_2_alg».proof.Proof.LibMatmulBlock
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx Cert.NodeUpdate

/-- A bias vector made a one-row array and laid over the 4000 rows reads, at (p, q), the vector at q. -/
theorem biasRow (x : FVec Ideal S128 .f32) (p : Fin 4000) (q : Fin 128) :
    broadcastTo S4000x128 (shapeCast S1x128 x shapeCasts_S128_S1x128) broadcasts_S1x128_S4000x128 (ix2 p q) = x (ix1 q) :=
  (broadcastTo_1b_ab_apply _ _ p q).trans (shapeCast_a_1a_apply x _ 0 q)

/-- A block product into the zero accumulator, at entry (p, q). -/
theorem blockProduct {φ₁ φ₂ : FTy} (A : FVec Ideal S4000x128 φ₁) (B : FVec Ideal S128x128 φ₂) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) :=
  Cert.LibMatmulBlock.matmul_zero_apply dot_S4000x128_S128x128_S4000x128_1_0_0_1_n_n_wf none A B p q

/-- The body's activation, applied to a whole block, is the shifted softplus entry by entry (the rounding to the
    narrower format that follows it is the identity on extended reals). -/
theorem sspBlock (z : FVec Ideal S4000x128 .f32) (i : S4000x128.Idx) :
    (truncf .bf16 (subf (select (cmpf .one (subf z (broadcast S4000x128 (Scalar.ofBits (F := Ideal) .f32 0x00000000#32)))
            (subf z (broadcast S4000x128 (Scalar.ofBits (F := Ideal) .f32 0x00000000#32))))
          (addf z (broadcast S4000x128 (Scalar.ofBits (F := Ideal) .f32 0x00000000#32)))
          (addf (maximumf z (broadcast S4000x128 (Scalar.ofBits (F := Ideal) .f32 0x00000000#32)))
            (log1p (exp (subf (broadcast S4000x128 (Scalar.ofBits (F := Ideal) .f32 0x00000000#32))
              (absf (subf z (broadcast S4000x128 (Scalar.ofBits (F := Ideal) .f32 0x00000000#32)))))))))
        (broadcast S4000x128 (Scalar.ofBits (F := Ideal) .f32 0x3F317218#32))) bitsLt_bf16_f32 : FVec Ideal S4000x128 .bf16) i
      = ssp (z i) := rfl

/-- A whole-block load recast to its own shape is the load. -/
theorem recast (S : Shape) {α : Type} (v : S.Idx → α) (h : S.ShapeCasts S) : shapeCast S v h = v := shapeCast_self v h

/-- The first branch of the body at (p, j): the block product of the aggregated rows with the first weight block, the
    first bias, the activation, the second product and bias. -/
theorem branchOne (x1 : Vec Ideal S4000x128 .bf16) (x3 : Vec Ideal S128x128 .bf16) (x4 : Vec Ideal S128 .f32)
    (x5 : Vec Ideal S128x128 .bf16) (x6 : Vec Ideal S128 .f32) (p : Fin 4000) (j : Fin 128) :
    k0_pay2 x1 x3 x4 x5 x6 (ix2 p j)
      = branch (fun l k => x3 (ix2 l k)) (fun k => x4 (ix1 k)) (fun k j => x5 (ix2 k j)) (fun j => x6 (ix1 j))
          (fun l => x1 (ix2 p l)) j := by
  unfold k0_pay2
  refine (addf_apply _ _ _).trans ?_
  refine congrArg₂ (· + ·) ?_ (biasRow x6 p j)
  refine (blockProduct _ _ p j).trans (Finset.sum_congr rfl fun k _ => ?_)
  refine congrArg₂ (· * ·) ?_ (congrFun (recast S128x128 x5 _) (ix2 k j))
  refine (sspBlock _ _).trans (congrArg ssp ?_)
  refine (addf_apply _ _ _).trans ?_
  refine congrArg₂ (· + ·) ?_ (biasRow x4 p k)
  refine (blockProduct _ _ p k).trans (Finset.sum_congr rfl fun l _ => ?_)
  exact congrArg₂ (· * ·) (congrFun (recast S4000x128 x1 _) (ix2 p l)) (congrFun (recast S128x128 x3 _) (ix2 l k))

/-- The second branch's first block product at (p, k). -/
theorem hullProduct (x2 : Vec Ideal S4000x128 .bf16) (x7 : Vec Ideal S128x128 .bf16) (p : Fin 4000) (k : Fin 128) :
    k0_pay3 x2 x7 (ix2 p k) = ∑ l : Fin 128, x2 (ix2 p l) * x7 (ix2 l k) := by
  unfold k0_pay3
  refine (blockProduct _ _ p k).trans (Finset.sum_congr rfl fun l _ => ?_)
  exact congrArg₂ (· * ·) (congrFun (recast S4000x128 x2 _) (ix2 p l)) (congrFun (recast S128x128 x7 _) (ix2 l k))

/-- The second branch's first bias as a one-row array, at (0, k). -/
theorem hullBias (x8 : Vec Ideal S128 .f32) (k : Fin 128) : k0_pay4 x8 (ix2 (0 : Fin 1) k) = x8 (ix1 k) := by
  unfold k0_pay4
  exact shapeCast_a_1a_apply x8 _ 0 k

/-- The last layer's pre-activation at (p, q), from the first branch's block `u`, the second branch's first product
    `g` and first bias row `r`: the second branch is finished (bias, activation, second product and bias), then each
    branch is multiplied by its half of the last matrix, the two are added, and the last bias is added. -/
theorem joinedAt (u g : FVec Ideal S4000x128 .f32) (r : FVec Ideal S1x128 .f32) (x9 : Vec Ideal S128x128 .bf16)
    (x10 : Vec Ideal S128 .f32) (x11 x12 : Vec Ideal S128x128 .bf16) (x13 : Vec Ideal S128 .f32) (p : Fin 4000) (q : Fin 128) :
    k0_pay5 u g r x9 x10 x11 x12 x13 (ix2 p q)
      = joined (fun j c => x11 (ix2 j c)) (fun j c => x12 (ix2 j c)) (fun c => x13 (ix1 c)) (fun j => u (ix2 p j))
          (layer (fun k j => x9 (ix2 k j)) (fun j => x10 (ix1 j)) fun k => ssp (g (ix2 p k) + r (ix2 (0 : Fin 1) k))) q := by
  unfold k0_pay5 joined
  refine (addf_apply _ _ _).trans ?_
  refine congrArg₂ (· + ·) ?_ (biasRow x13 p q)
  refine (addf_apply _ _ _).trans ?_
  refine congrArg₂ (· + ·) ?_ ?_
  · refine (blockProduct _ _ p q).trans (Finset.sum_congr rfl fun j _ => ?_)
    exact congrArg (u (ix2 p j) * ·) (congrFun (recast S128x128 x11 _) (ix2 j q))
  · refine (blockProduct _ _ p q).trans (Finset.sum_congr rfl fun j _ => ?_)
    refine congrArg₂ (· * ·) ?_ (congrFun (recast S128x128 x12 _) (ix2 j q))
    refine (addf_apply _ _ _).trans ?_
    refine congrArg₂ (· + ·) ?_ (biasRow x10 p j)
    refine (blockProduct _ _ p j).trans (Finset.sum_congr rfl fun k _ => ?_)
    refine congrArg₂ (· * ·) ?_ (congrFun (recast S128x128 x9 _) (ix2 k j))
    refine (sspBlock _ _).trans (congrArg ssp ?_)
    refine (addf_apply _ _ _).trans ?_
    exact congrArg (g (ix2 p k) + ·) (broadcastTo_1b_ab_apply r _ p k)

/-- The last step over any pre-activation block `z` and node block `v`: with the maximum against zero and the zero
    block passed in as the body passes them, the stored value is v + the shifted softplus of z, entry by entry. -/
theorem finalAt (z : FVec Ideal S4000x128 .f32) (v : Vec Ideal S4000x128 .f32) (i : S4000x128.Idx) :
    k0_pay1 z v (Scalar.ofBits .f32 0x00000000#32)
        (maximumf z (broadcast S4000x128 (Scalar.ofBits (F := Ideal) .f32 0x00000000#32)))
        (broadcast S4000x128 (Scalar.ofBits (F := Ideal) .f32 0x00000000#32)) i
      = v i + ssp (z i) := rfl

/-- The block a grid point stores, as a term of its fourteen loaded blocks. -/
def stored (x0 : Vec Ideal S4000x128 .f32) (x1 x2 : Vec Ideal S4000x128 .bf16) (x3 : Vec Ideal S128x128 .bf16)
    (x4 : Vec Ideal S128 .f32) (x5 : Vec Ideal S128x128 .bf16) (x6 : Vec Ideal S128 .f32) (x7 : Vec Ideal S128x128 .bf16)
    (x8 : Vec Ideal S128 .f32) (x9 : Vec Ideal S128x128 .bf16) (x10 : Vec Ideal S128 .f32) (x11 x12 : Vec Ideal S128x128 .bf16)
    (x13 : Vec Ideal S128 .f32) : Vec Ideal S4000x128 .f32 :=
  k0_pay1 (k0_pay5 (k0_pay2 x1 x3 x4 x5 x6) (k0_pay3 x2 x7) (k0_pay4 x8) x9 x10 x11 x12 x13) x0
    (Scalar.ofBits .f32 0x00000000#32)
    (k0_pay6 (k0_pay2 x1 x3 x4 x5 x6) (k0_pay3 x2 x7) (k0_pay4 x8) x9 x10 x11 x12 x13) (k0_pay7 (F := Ideal))

/-- The stored block is the node rows plus the shifted softplus of the last layer's pre-activation, entry by entry. -/
theorem stored_apply (x0 : Vec Ideal S4000x128 .f32) (x1 x2 : Vec Ideal S4000x128 .bf16) (x3 : Vec Ideal S128x128 .bf16)
    (x4 : Vec Ideal S128 .f32) (x5 : Vec Ideal S128x128 .bf16) (x6 : Vec Ideal S128 .f32) (x7 : Vec Ideal S128x128 .bf16)
    (x8 : Vec Ideal S128 .f32) (x9 : Vec Ideal S128x128 .bf16) (x10 : Vec Ideal S128 .f32) (x11 x12 : Vec Ideal S128x128 .bf16)
    (x13 : Vec Ideal S128 .f32) (i : S4000x128.Idx) :
    stored x0 x1 x2 x3 x4 x5 x6 x7 x8 x9 x10 x11 x12 x13 i
      = x0 i + ssp (k0_pay5 (k0_pay2 x1 x3 x4 x5 x6) (k0_pay3 x2 x7) (k0_pay4 x8) x9 x10 x11 x12 x13 i) := by
  unfold stored k0_pay6 k0_pay7
  exact finalAt (k0_pay5 (k0_pay2 x1 x3 x4 x5 x6) (k0_pay3 x2 x7) (k0_pay4 x8) x9 x10 x11 x12 x13) x0 i

/-- Entry (p, q) of the stored block is entry (n, q) of the whole result, as soon as the loaded blocks are what the
    whole arrays hold there: the three row blocks hold row n of their arrays at row p, each weight block holds its
    matrix transposed, each half of the last matrix its columns, each bias its vector. -/
theorem stored_entry (x0 : Vec Ideal S4000x128 .f32) (x1 x2 : Vec Ideal S4000x128 .bf16) (x3 : Vec Ideal S128x128 .bf16)
    (x4 : Vec Ideal S128 .f32) (x5 : Vec Ideal S128x128 .bf16) (x6 : Vec Ideal S128 .f32) (x7 : Vec Ideal S128x128 .bf16)
    (x8 : Vec Ideal S128 .f32) (x9 : Vec Ideal S128x128 .bf16) (x10 : Vec Ideal S128 .f32) (x11 x12 : Vec Ideal S128x128 .bf16)
    (x13 : Vec Ideal S128 .f32)
    (v a h : (⟨2, ![100000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W1h : (⟨2, ![128, 128]⟩ : Shape).Idx → EReal) (b1h : (⟨1, ![128]⟩ : Shape).Idx → EReal)
    (W2h : (⟨2, ![128, 128]⟩ : Shape).Idx → EReal) (b2h : (⟨1, ![128]⟩ : Shape).Idx → EReal)
    (Wc : (⟨2, ![128, 256]⟩ : Shape).Idx → EReal) (bc : (⟨1, ![128]⟩ : Shape).Idx → EReal)
    (n : Fin 100000) (p : Fin 4000) (q : Fin 128)
    (h0 : ∀ c : Fin 128, x0 (ix2 p c) = v (ix2 n c)) (h1 : ∀ l : Fin 128, x1 (ix2 p l) = a (ix2 n l))
    (h2 : ∀ l : Fin 128, x2 (ix2 p l) = h (ix2 n l))
    (h3 : ∀ l k : Fin 128, x3 (ix2 l k) = W1 (ix2 k l)) (h4 : ∀ k : Fin 128, x4 (ix1 k) = b1 (ix1 k))
    (h5 : ∀ k j : Fin 128, x5 (ix2 k j) = W2 (ix2 j k)) (h6 : ∀ j : Fin 128, x6 (ix1 j) = b2 (ix1 j))
    (h7 : ∀ l k : Fin 128, x7 (ix2 l k) = W1h (ix2 k l)) (h8 : ∀ k : Fin 128, x8 (ix1 k) = b1h (ix1 k))
    (h9 : ∀ k j : Fin 128, x9 (ix2 k j) = W2h (ix2 j k)) (h10 : ∀ j : Fin 128, x10 (ix1 j) = b2h (ix1 j))
    (h11 : ∀ j c : Fin 128, x11 (ix2 j c) = Wc (ix2 c (Fin.castAdd 128 j)))
    (h12 : ∀ j c : Fin 128, x12 (ix2 j c) = Wc (ix2 c (Fin.natAdd 128 j)))
    (h13 : ∀ c : Fin 128, x13 (ix1 c) = bc (ix1 c)) :
    stored x0 x1 x2 x3 x4 x5 x6 x7 x8 x9 x10 x11 x12 x13 (ix2 p q)
      = entry v a h W1 b1 W2 b2 W1h b1h W2h b2h Wc bc n q := by
  rw [stored_apply, joinedAt, h0]
  unfold entry node
  refine congrArg (v (ix2 n q) + ssp ·) ?_
  have e3 : (fun l k : Fin 128 => x3 (ix2 l k)) = fun l k => W1 (ix2 k l) := funext fun l => funext fun k => h3 l k
  have e4 : (fun k : Fin 128 => x4 (ix1 k)) = fun k => b1 (ix1 k) := funext h4
  have e5 : (fun k j : Fin 128 => x5 (ix2 k j)) = fun k j => W2 (ix2 j k) := funext fun k => funext fun j => h5 k j
  have e6 : (fun j : Fin 128 => x6 (ix1 j)) = fun j => b2 (ix1 j) := funext h6
  have e7 : (fun l k : Fin 128 => x7 (ix2 l k)) = fun l k => W1h (ix2 k l) := funext fun l => funext fun k => h7 l k
  have e8 : (fun k : Fin 128 => x8 (ix1 k)) = fun k => b1h (ix1 k) := funext h8
  have e9 : (fun k j : Fin 128 => x9 (ix2 k j)) = fun k j => W2h (ix2 j k) := funext fun k => funext fun j => h9 k j
  have e10 : (fun j : Fin 128 => x10 (ix1 j)) = fun j => b2h (ix1 j) := funext h10
  have e11 : (fun j c : Fin 128 => x11 (ix2 j c)) = fun j c => Wc (ix2 c (Fin.castAdd 128 j)) :=
    funext fun j => funext fun c => h11 j c
  have e12 : (fun j c : Fin 128 => x12 (ix2 j c)) = fun j c => Wc (ix2 c (Fin.natAdd 128 j)) :=
    funext fun j => funext fun c => h12 j c
  have e13 : (fun c : Fin 128 => x13 (ix1 c)) = fun c => bc (ix1 c) := funext h13
  have e1 : (fun l : Fin 128 => x1 (ix2 p l)) = fun l => a (ix2 n l) := funext h1
  have eb1 : (fun j : Fin 128 => k0_pay2 x1 x3 x4 x5 x6 (ix2 p j))
      = branch (fun l k => W1 (ix2 k l)) (fun k => b1 (ix1 k)) (fun k j => W2 (ix2 j k)) (fun j => b2 (ix1 j))
          (fun l => a (ix2 n l)) := by
    funext j; rw [branchOne, e3, e4, e5, e6, e1]
  have eb2 : (fun k : Fin 128 => ssp (k0_pay3 x2 x7 (ix2 p k) + k0_pay4 x8 (ix2 (0 : Fin 1) k)))
      = fun k => ssp (layer (fun l k => W1h (ix2 k l)) (fun k => b1h (ix1 k)) (fun l => h (ix2 n l)) k) := by
    funext k
    rw [hullProduct, hullBias, h8]
    exact congrArg ssp (congrArg (· + b1h (ix1 k)) (Finset.sum_congr rfl fun l _ => by rw [h2, h7]))
  rw [eb1, eb2, e9, e10, e11, e12, e13]
  rfl

end Cert.KernelIdeal.BodyValue

end
-- ==== Proof.HostArrays.lean ====
/-
  The arrays the kernel's region reads, in terms of the program's arguments.

  Before the region the program aggregates the two edge arrays onto the nodes (a scatter-add of the edge rows at the
  second row of each edge-index array, into zeros), rounds the results to the narrower format, rounds and transposes the
  four square weight matrices, and cuts the [128, 256] matrix into its two column halves, rounded and transposed. On
  the extended reals every rounding is the identity, so each transposed matrix read at (l, k) is the argument at (k, l),
  each half read at (j, c) is the argument at (c, j) or (c, 128 + j), and the aggregated arrays are the scatter-adds
  themselves. The biases and the node features are arguments the region reads as they are.
-/
import proofs.«129589_j6975026889058_2_alg».proof.Proof.Gen.KernelIdeal.Frame
import Idealize.ShloMosaic.Lib.StableHlo.Run
import Idealize.ShloMosaic.Lib.ValueLayout

noncomputable section

namespace Cert.KernelIdeal.HostArrays

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ)

/-- The first aggregated array: the edge rows `e` added onto the nodes named by the second row of `ei`. -/
def agg (e : (⟨S1600000x128, .f32⟩ : BufTy).Contents (Elt Ideal)) (ei : (⟨S2x1600000, .i32⟩ : BufTy).Contents (Elt Ideal)) :
    S100000x128.Idx → EReal :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast _ (extractStridedSlice S1x1600000 ![1, 0] ei slices_S2x1600000_S1x1600000_1_0) shapeCasts_S1x1600000_S1600000))
    e

/-- The second aggregated array, the same for the second edge set. -/
def aggHull (e : (⟨S400000x128, .f32⟩ : BufTy).Contents (Elt Ideal)) (ei : (⟨S2x400000, .i32⟩ : BufTy).Contents (Elt Ideal)) :
    S100000x128.Idx → EReal :=
  Host.scatterAdd scatter_S100000x128_S400000x1_S400000x128_1_0_0_1
    (broadcastInDim S100000x128 ![] bcast_S_S100000x128 (constant (F := Ideal) S_ .f32 0x00000000#32))
    (broadcastInDim S400000x1 ![0] bcast_S400000_S400000x1_0
      (shapeCast _ (extractStridedSlice S1x400000 ![1, 0] ei slices_S2x400000_S1x400000_1_0) shapeCasts_S1x400000_S400000))
    e

/-- Rounding to the narrower format is the identity on extended reals, entry by entry. -/
theorem rounded_apply {S : Shape} (a : FVec Ideal S .f32) (i : S.Idx) :
    (truncf (F := Ideal) .bf16 a bitsLt_bf16_f32 : FVec Ideal S .bf16) i = a i := rfl

/-- The region finds the first aggregated array, rounded, in its second window's array. -/
theorem agg_eq (c : Dev nD) :
    @Eq (S100000x128.Idx → EReal) (V m c main_v5) (truncf (F := Ideal) .bf16 (agg (m ((c : Thread nD τ).loc main_arg1)) (m ((c : Thread nD τ).loc main_arg2))) bitsLt_bf16_f32) := by
  unfold agg; dsimp only [Gen.V, Gen.hostOps0]; after_results <;> rfl

/-- The region finds the second aggregated array, rounded, in its third window's array. -/
theorem aggHull_eq (c : Dev nD) :
    @Eq (S100000x128.Idx → EReal) (V m c main_v11) (truncf (F := Ideal) .bf16 (aggHull (m ((c : Thread nD τ).loc main_arg3)) (m ((c : Thread nD τ).loc main_arg4))) bitsLt_bf16_f32) := by
  unfold aggHull; dsimp only [Gen.V, Gen.hostOps0]; after_results <;> rfl

/-- The first aggregated array as the region finds it, entry by entry. -/
theorem agg_at (c : Dev nD) (i : S100000x128.Idx) :
    (V m c main_v5 : S100000x128.Idx → EReal) i = agg (m ((c : Thread nD τ).loc main_arg1)) (m ((c : Thread nD τ).loc main_arg2)) i :=
  (congrFun (agg_eq m c) i).trans (rounded_apply _ i)

/-- The second aggregated array as the region finds it, entry by entry. -/
theorem aggHull_at (c : Dev nD) (i : S100000x128.Idx) :
    (V m c main_v11 : S100000x128.Idx → EReal) i = aggHull (m ((c : Thread nD τ).loc main_arg3)) (m ((c : Thread nD τ).loc main_arg4)) i :=
  (congrFun (aggHull_eq m c) i).trans (rounded_apply _ i)

/-- The first branch's first weight matrix as the region finds it, at (l, k). -/
theorem w1_at (c : Dev nD) (l k : Fin 128) :
    (V m c main_v13 : S128x128.Idx → EReal) (ix2 l k) = (m ((c : Thread nD τ).loc main_arg5)) (ix2 k l) := by
  have e : @Eq (S128x128.Idx → EReal) (V m c main_v13)
      (transpose S128x128 [1, 0] (truncf (F := Ideal) .bf16 (m ((c : Thread nD τ).loc main_arg5)) bitsLt_bf16_f32) transposes_S128x128_S128x128_1_0) := by
    dsimp only [Gen.V, Gen.hostOps0]; after_results <;> rfl
  exact (congrFun e (ix2 l k)).trans ((transpose_ix2_apply _ _ l k).trans (rounded_apply _ _))

/-- The first branch's second weight matrix as the region finds it, at (l, k). -/
theorem w2_at (c : Dev nD) (l k : Fin 128) :
    (V m c main_v15 : S128x128.Idx → EReal) (ix2 l k) = (m ((c : Thread nD τ).loc main_arg7)) (ix2 k l) := by
  have e : @Eq (S128x128.Idx → EReal) (V m c main_v15)
      (transpose S128x128 [1, 0] (truncf (F := Ideal) .bf16 (m ((c : Thread nD τ).loc main_arg7)) bitsLt_bf16_f32) transposes_S128x128_S128x128_1_0) := by
    dsimp only [Gen.V, Gen.hostOps0]; after_results <;> rfl
  exact (congrFun e (ix2 l k)).trans ((transpose_ix2_apply _ _ l k).trans (rounded_apply _ _))

/-- The second branch's first weight matrix as the region finds it, at (l, k). -/
theorem w1h_at (c : Dev nD) (l k : Fin 128) :
    (V m c main_v17 : S128x128.Idx → EReal) (ix2 l k) = (m ((c : Thread nD τ).loc main_arg9)) (ix2 k l) := by
  have e : @Eq (S128x128.Idx → EReal) (V m c main_v17)
      (transpose S128x128 [1, 0] (truncf (F := Ideal) .bf16 (m ((c : Thread nD τ).loc main_arg9)) bitsLt_bf16_f32) transposes_S128x128_S128x128_1_0) := by
    dsimp only [Gen.V, Gen.hostOps0]; after_results <;> rfl
  exact (congrFun e (ix2 l k)).trans ((transpose_ix2_apply _ _ l k).trans (rounded_apply _ _))

/-- The second branch's second weight matrix as the region finds it, at (l, k). -/
theorem w2h_at (c : Dev nD) (l k : Fin 128) :
    (V m c main_v19 : S128x128.Idx → EReal) (ix2 l k) = (m ((c : Thread nD τ).loc main_arg11)) (ix2 k l) := by
  have e : @Eq (S128x128.Idx → EReal) (V m c main_v19)
      (transpose S128x128 [1, 0] (truncf (F := Ideal) .bf16 (m ((c : Thread nD τ).loc main_arg11)) bitsLt_bf16_f32) transposes_S128x128_S128x128_1_0) := by
    dsimp only [Gen.V, Gen.hostOps0]; after_results <;> rfl
  exact (congrFun e (ix2 l k)).trans ((transpose_ix2_apply _ _ l k).trans (rounded_apply _ _))

/-- The first column half of the last weight matrix as the region finds it, at (j, c). -/
theorem wca_at (c : Dev nD) (j q : Fin 128) :
    (V m c main_v23 : S128x128.Idx → EReal) (ix2 j q) = (m ((c : Thread nD τ).loc main_arg13)) (ix2 q (Fin.castAdd 128 j)) := by
  have e : @Eq (S128x128.Idx → EReal) (V m c main_v23)
      (transpose S128x128 [1, 0] (truncf (F := Ideal) .bf16 (extractStridedSlice S128x128 ![0, 0] (m ((c : Thread nD τ).loc main_arg13)) slices_S128x256_S128x128_0_0)
          bitsLt_bf16_f32) transposes_S128x128_S128x128_1_0) := by
    dsimp only [Gen.V, Gen.hostOps0]; after_results <;> rfl
  refine (congrFun e (ix2 j q)).trans ((transpose_ix2_apply _ _ j q).trans ((rounded_apply _ _).trans ?_))
  exact slice2_axis1_apply 0 _ slices_S128x256_S128x128_0_0 q j (Fin.castAdd 128 j) (by show j.val = 0 + j.val; omega)

/-- The second column half of the last weight matrix as the region finds it, at (j, c). -/
theorem wcb_at (c : Dev nD) (j q : Fin 128) :
    (V m c main_v25 : S128x128.Idx → EReal) (ix2 j q) = (m ((c : Thread nD τ).loc main_arg13)) (ix2 q (Fin.natAdd 128 j)) := by
  have e : @Eq (S128x128.Idx → EReal) (V m c main_v25)
      (transpose S128x128 [1, 0] (truncf (F := Ideal) .bf16 (extractStridedSlice S128x128 ![0, 128] (m ((c : Thread nD τ).loc main_arg13)) slices_S128x256_S128x128_0_128)
          bitsLt_bf16_f32) transposes_S128x128_S128x128_1_0) := by
    dsimp only [Gen.V, Gen.hostOps0]; after_results <;> rfl
  refine (congrFun e (ix2 j q)).trans ((transpose_ix2_apply _ _ j q).trans ((rounded_apply _ _).trans ?_))
  exact slice2_axis1_apply 128 _ slices_S128x256_S128x128_0_128 q j (Fin.natAdd 128 j) (by show 128 + j.val = 128 + j.val; rfl)

end Cert.KernelIdeal.HostArrays

end
-- ==== Proof.KernelValue.lean ====
/-
  From the blocks to the whole result array.

  The grid has 25 points; point t stages rows 4000·t … 4000·t + 3999 of the node features and of the two aggregated
  arrays, every weight matrix and bias whole, and writes back rows 4000·t … 4000·t + 3999 of the result. Entry (p, q) of
  the block it writes is entry (4000·t + p, q) of the node update of the whole arrays, so each written block is the
  matching block of one function of the arguments; the 25 blocks cover all 100000 rows (row r lies in the block of point
  r / 4000); hence the result array ends holding that function.
-/
import proofs.«129589_j6975026889058_2_alg».proof.Proof.Gen.KernelIdeal.Value
import proofs.«129589_j6975026889058_2_alg».proof.Proof.NodeUpdate
import proofs.«129589_j6975026889058_2_alg».proof.Proof.BodyValue
import proofs.«129589_j6975026889058_2_alg».proof.Proof.HostArrays

noncomputable section

namespace Cert.KernelIdeal.KernelValue

open Cert.KernelIdeal Cert.KernelIdeal.Gen Idealize.ShloMosaic Idealize.ShloMosaic.ValueIdx Idealize.ShloMosaic.TcCoe
open Idealize.SL.Sem Cert.NodeUpdate
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The row windows (node features, the two aggregated arrays, the result) sit at block (t, 0) at point t. -/
theorem rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_14.index t (0 : Fin 2) = t.val ∧ win0_14.index t (1 : Fin 2) = 0 :=
  (by decide +kernel : ∀ t : Fin grid0.N, _)

/-- The six weight windows sit at block (0, 0) at every point. -/
theorem whole2 : ∀ t : Fin cfg0.N,
    win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- The five bias windows sit at block 0 at every point. -/
theorem whole1 : ∀ t : Fin cfg0.N,
    win0_4.index t (0 : Fin 1) = 0 ∧ win0_6.index t (0 : Fin 1) = 0 ∧ win0_8.index t (0 : Fin 1) = 0
    ∧ win0_10.index t (0 : Fin 1) = 0 ∧ win0_13.index t (0 : Fin 1) = 0 :=
  (by decide +kernel : ∀ t : Fin grid0.N, _)

/-- The result array as one function of the arguments: the node update of the node features, the two aggregated
    arrays and the weights. -/
def result (c : Dev nD) : S100000x128.Idx → EReal :=
  G (m ((c : Thread nD τ).loc main_arg0)) (HostArrays.agg (m ((c : Thread nD τ).loc main_arg1)) (m ((c : Thread nD τ).loc main_arg2))) (HostArrays.aggHull (m ((c : Thread nD τ).loc main_arg3)) (m ((c : Thread nD τ).loc main_arg4)))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-! ## Each window's array under its two names -/

/-- The region-entry contents at two names of one buffer are one array. -/
theorem V_of_ref (c : Dev nD) {b b' : Ref sig .tc} (h : b = b') : HEq (V m c b) (V m c b') := by subst h; rfl

theorem arr0 : Pipeline.arrRef spec0 0 = main_arg0 := rfl
theorem V_win0 (c : Dev nD) : @Eq (S100000x128.Idx → EReal) (V m c (Pipeline.arrRef spec0 0)) (V m c main_arg0) :=
  eq_of_heq (V_of_ref m c arr0)

theorem arr1 : Pipeline.arrRef spec0 1 = main_v5 := rfl
theorem V_win1 (c : Dev nD) : @Eq (S100000x128.Idx → EReal) (V m c (Pipeline.arrRef spec0 1)) (V m c main_v5) :=
  eq_of_heq (V_of_ref m c arr1)

theorem arr2 : Pipeline.arrRef spec0 2 = main_v11 := rfl
theorem V_win2 (c : Dev nD) : @Eq (S100000x128.Idx → EReal) (V m c (Pipeline.arrRef spec0 2)) (V m c main_v11) :=
  eq_of_heq (V_of_ref m c arr2)

theorem arr3 : Pipeline.arrRef spec0 3 = main_v13 := rfl
theorem V_win3 (c : Dev nD) : @Eq (S128x128.Idx → EReal) (V m c (Pipeline.arrRef spec0 3)) (V m c main_v13) :=
  eq_of_heq (V_of_ref m c arr3)

theorem arr4 : Pipeline.arrRef spec0 4 = main_arg6 := rfl
theorem V_win4 (c : Dev nD) : @Eq (S128.Idx → EReal) (V m c (Pipeline.arrRef spec0 4)) (V m c main_arg6) :=
  eq_of_heq (V_of_ref m c arr4)

theorem arr5 : Pipeline.arrRef spec0 5 = main_v15 := rfl
theorem V_win5 (c : Dev nD) : @Eq (S128x128.Idx → EReal) (V m c (Pipeline.arrRef spec0 5)) (V m c main_v15) :=
  eq_of_heq (V_of_ref m c arr5)

theorem arr6 : Pipeline.arrRef spec0 6 = main_arg8 := rfl
theorem V_win6 (c : Dev nD) : @Eq (S128.Idx → EReal) (V m c (Pipeline.arrRef spec0 6)) (V m c main_arg8) :=
  eq_of_heq (V_of_ref m c arr6)

theorem arr7 : Pipeline.arrRef spec0 7 = main_v17 := rfl
theorem V_win7 (c : Dev nD) : @Eq (S128x128.Idx → EReal) (V m c (Pipeline.arrRef spec0 7)) (V m c main_v17) :=
  eq_of_heq (V_of_ref m c arr7)

theorem arr8 : Pipeline.arrRef spec0 8 = main_arg10 := rfl
theorem V_win8 (c : Dev nD) : @Eq (S128.Idx → EReal) (V m c (Pipeline.arrRef spec0 8)) (V m c main_arg10) :=
  eq_of_heq (V_of_ref m c arr8)

theorem arr9 : Pipeline.arrRef spec0 9 = main_v19 := rfl
theorem V_win9 (c : Dev nD) : @Eq (S128x128.Idx → EReal) (V m c (Pipeline.arrRef spec0 9)) (V m c main_v19) :=
  eq_of_heq (V_of_ref m c arr9)

theorem arr10 : Pipeline.arrRef spec0 10 = main_arg12 := rfl
theorem V_win10 (c : Dev nD) : @Eq (S128.Idx → EReal) (V m c (Pipeline.arrRef spec0 10)) (V m c main_arg12) :=
  eq_of_heq (V_of_ref m c arr10)

theorem arr11 : Pipeline.arrRef spec0 11 = main_v23 := rfl
theorem V_win11 (c : Dev nD) : @Eq (S128x128.Idx → EReal) (V m c (Pipeline.arrRef spec0 11)) (V m c main_v23) :=
  eq_of_heq (V_of_ref m c arr11)

theorem arr12 : Pipeline.arrRef spec0 12 = main_v25 := rfl
theorem V_win12 (c : Dev nD) : @Eq (S128x128.Idx → EReal) (V m c (Pipeline.arrRef spec0 12)) (V m c main_v25) :=
  eq_of_heq (V_of_ref m c arr12)

theorem arr13 : Pipeline.arrRef spec0 13 = main_arg14 := rfl
theorem V_win13 (c : Dev nD) : @Eq (S128.Idx → EReal) (V m c (Pipeline.arrRef spec0 13)) (V m c main_arg14) :=
  eq_of_heq (V_of_ref m c arr13)

/-! ## Each window's block, read where the whole arrays hold it -/

/-- Row p of the node-feature block at point t is row 4000·t + p of the node features. -/
theorem read_v (c : Dev nD) (t : Fin cfg0.N) (p : Fin 4000) (l : Fin 128) (n : Fin 100000) (hn : n.val = t.val * 4000 + p.val) :
    (iblk m c 0 t : Vec Ideal S4000x128 .f32) (ix2 p l) = (m ((c : Thread nD τ).loc main_arg0)) (ix2 n l) := by
  have e : (((cfg0.win 0).blk t).view.emb (ix2 p l) : S100000x128.Idx) = ix2 n l := funext fun ax => Fin.ext (by
    match ax with
    | ⟨0, _⟩ => show win0_0.index t (0 : Fin 2) * 4000 + 1 * p.val = n.val; rw [(rows t).1, hn]; omega
    | ⟨1, _⟩ => show win0_0.index t (1 : Fin 2) * 128 + 1 * l.val = l.val; rw [(rows t).2.1]; omega)
  unfold iblk
  rw [View.read_apply]
  refine (cast_eq _ _).trans ?_
  rw [e, V_win0 m c]
  exact congrFun (V_main_arg0 m c) (ix2 n l)

/-- Row p of the first aggregated block at point t is row 4000·t + p of the first aggregated array. -/
theorem read_agg (c : Dev nD) (t : Fin cfg0.N) (p : Fin 4000) (l : Fin 128) (n : Fin 100000) (hn : n.val = t.val * 4000 + p.val) :
    (iblk m c 1 t : Vec Ideal S4000x128 .bf16) (ix2 p l) = HostArrays.agg (m ((c : Thread nD τ).loc main_arg1)) (m ((c : Thread nD τ).loc main_arg2)) (ix2 n l) := by
  have e : (((cfg0.win 1).blk t).view.emb (ix2 p l) : S100000x128.Idx) = ix2 n l := funext fun ax => Fin.ext (by
    match ax with
    | ⟨0, _⟩ => show win0_1.index t (0 : Fin 2) * 4000 + 1 * p.val = n.val; rw [(rows t).2.2.1, hn]; omega
    | ⟨1, _⟩ => show win0_1.index t (1 : Fin 2) * 128 + 1 * l.val = l.val; rw [(rows t).2.2.2.1]; omega)
  unfold iblk
  rw [View.read_apply]
  refine (cast_eq _ _).trans ?_
  rw [e, V_win1 m c]
  exact HostArrays.agg_at m c (ix2 n l)

/-- Row p of the second aggregated block at point t is row 4000·t + p of the second aggregated array. -/
theorem read_aggHull (c : Dev nD) (t : Fin cfg0.N) (p : Fin 4000) (l : Fin 128) (n : Fin 100000) (hn : n.val = t.val * 4000 + p.val) :
    (iblk m c 2 t : Vec Ideal S4000x128 .bf16) (ix2 p l) = HostArrays.aggHull (m ((c : Thread nD τ).loc main_arg3)) (m ((c : Thread nD τ).loc main_arg4)) (ix2 n l) := by
  have e : (((cfg0.win 2).blk t).view.emb (ix2 p l) : S100000x128.Idx) = ix2 n l := funext fun ax => Fin.ext (by
    match ax with
    | ⟨0, _⟩ => show win0_2.index t (0 : Fin 2) * 4000 + 1 * p.val = n.val; rw [(rows t).2.2.2.2.1, hn]; omega
    | ⟨1, _⟩ => show win0_2.index t (1 : Fin 2) * 128 + 1 * l.val = l.val; rw [(rows t).2.2.2.2.2.1]; omega)
  unfold iblk
  rw [View.read_apply]
  refine (cast_eq _ _).trans ?_
  rw [e, V_win2 m c]
  exact HostArrays.aggHull_at m c (ix2 n l)

/-- The first branch's first weight block, at every point, is the whole matrix transposed. -/
theorem read_w1 (c : Dev nD) (t : Fin cfg0.N) (l k : Fin 128) :
    (iblk m c 3 t : Vec Ideal S128x128 .bf16) (ix2 l k) = (m ((c : Thread nD τ).loc main_arg5)) (ix2 k l) := by
  have e : (((cfg0.win 3).blk t).view.emb (ix2 l k) : S128x128.Idx) = ix2 l k := funext fun ax => Fin.ext (by
    match ax with
    | ⟨0, _⟩ => show win0_3.index t (0 : Fin 2) * 128 + 1 * l.val = l.val; rw [(whole2 t).1]; omega
    | ⟨1, _⟩ => show win0_3.index t (1 : Fin 2) * 128 + 1 * k.val = k.val; rw [(whole2 t).2.1]; omega)
  unfold iblk
  rw [View.read_apply]
  refine (cast_eq _ _).trans ?_
  rw [e, V_win3 m c]
  exact HostArrays.w1_at m c l k

/-- The first branch's first bias block, at every point, is the whole bias. -/
theorem read_b1 (c : Dev nD) (t : Fin cfg0.N) (k : Fin 128) :
    (iblk m c 4 t : Vec Ideal S128 .f32) (ix1 k) = (m ((c : Thread nD τ).loc main_arg6)) (ix1 k) := by
  have e : (((cfg0.win 4).blk t).view.emb (ix1 k) : S128.Idx) = ix1 k := funext fun ax => Fin.ext (by
    match ax with
    | ⟨0, _⟩ => show win0_4.index t (0 : Fin 1) * 128 + 1 * k.val = k.val; rw [(whole1 t).1]; omega)
  unfold iblk
  rw [View.read_apply]
  refine (cast_eq _ _).trans ?_
  rw [e, V_win4 m c]
  exact congrFun (V_main_arg6 m c) (ix1 k)

/-- The first branch's second weight block, at every point, is the whole matrix transposed. -/
theorem read_w2 (c : Dev nD) (t : Fin cfg0.N) (k j : Fin 128) :
    (iblk m c 5 t : Vec Ideal S128x128 .bf16) (ix2 k j) = (m ((c : Thread nD τ).loc main_arg7)) (ix2 j k) := by
  have e : (((cfg0.win 5).blk t).view.emb (ix2 k j) : S128x128.Idx) = ix2 k j := funext fun ax => Fin.ext (by
    match ax with
    | ⟨0, _⟩ => show win0_5.index t (0 : Fin 2) * 128 + 1 * k.val = k.val; rw [(whole2 t).2.2.1]; omega
    | ⟨1, _⟩ => show win0_5.index t (1 : Fin 2) * 128 + 1 * j.val = j.val; rw [(whole2 t).2.2.2.1]; omega)
  unfold iblk
  rw [View.read_apply]
  refine (cast_eq _ _).trans ?_
  rw [e, V_win5 m c]
  exact HostArrays.w2_at m c k j

/-- The first branch's second bias block, at every point, is the whole bias. -/
theorem read_b2 (c : Dev nD) (t : Fin cfg0.N) (k : Fin 128) :
    (iblk m c 6 t : Vec Ideal S128 .f32) (ix1 k) = (m ((c : Thread nD τ).loc main_arg8)) (ix1 k) := by
  have e : (((cfg0.win 6).blk t).view.emb (ix1 k) : S128.Idx) = ix1 k := funext fun ax => Fin.ext (by
    match ax with
    | ⟨0, _⟩ => show win0_6.index t (0 : Fin 1) * 128 + 1 * k.val = k.val; rw [(whole1 t).2.1]; omega)
  unfold iblk
  rw [View.read_apply]
  refine (cast_eq _ _).trans ?_
  rw [e, V_win6 m c]
  exact congrFun (V_main_arg8 m c) (ix1 k)

/-- The second branch's first weight block, at every point, is the whole matrix transposed. -/
theorem read_w1h (c : Dev nD) (t : Fin cfg0.N) (l k : Fin 128) :
    (iblk m c 7 t : Vec Ideal S128x128 .bf16) (ix2 l k) = (m ((c : Thread nD τ).loc main_arg9)) (ix2 k l) := by
  have e : (((cfg0.win 7).blk t).view.emb (ix2 l k) : S128x128.Idx) = ix2 l k := funext fun ax => Fin.ext (by
    match ax with
    | ⟨0, _⟩ => show win0_7.index t (0 : Fin 2) * 128 + 1 * l.val = l.val; rw [(whole2 t).2.2.2.2.1]; omega
    | ⟨1, _⟩ => show win0_7.index t (1 : Fin 2) * 128 + 1 * k.val = k.val; rw [(whole2 t).2.2.2.2.2.1]; omega)
  unfold iblk
  rw [View.read_apply]
  refine (cast_eq _ _).trans ?_
  rw [e, V_win7 m c]
  exact HostArrays.w1h_at m c l k

/-- The second branch's first bias block, at every point, is the whole bias. -/
theorem read_b1h (c : Dev nD) (t : Fin cfg0.N) (k : Fin 128) :
    (iblk m c 8 t : Vec Ideal S128 .f32) (ix1 k) = (m ((c : Thread nD τ).loc main_arg10)) (ix1 k) := by
  have e : (((cfg0.win 8).blk t).view.emb (ix1 k) : S128.Idx) = ix1 k := funext fun ax => Fin.ext (by
    match ax with
    | ⟨0, _⟩ => show win0_8.index t (0 : Fin 1) * 128 + 1 * k.val = k.val; rw [(whole1 t).2.2.1]; omega)
  unfold iblk
  rw [View.read_apply]
  refine (cast_eq _ _).trans ?_
  rw [e, V_win8 m c]
  exact congrFun (V_main_arg10 m c) (ix1 k)

/-- The second branch's second weight block, at every point, is the whole matrix transposed. -/
theorem read_w2h (c : Dev nD) (t : Fin cfg0.N) (k j : Fin 128) :
    (iblk m c 9 t : Vec Ideal S128x128 .bf16) (ix2 k j) = (m ((c : Thread nD τ).loc main_arg11)) (ix2 j k) := by
  have e : (((cfg0.win 9).blk t).view.emb (ix2 k j) : S128x128.Idx) = ix2 k j := funext fun ax => Fin.ext (by
    match ax with
    | ⟨0, _⟩ => show win0_9.index t (0 : Fin 2) * 128 + 1 * k.val = k.val; rw [(whole2 t).2.2.2.2.2.2.1]; omega
    | ⟨1, _⟩ => show win0_9.index t (1 : Fin 2) * 128 + 1 * j.val = j.val; rw [(whole2 t).2.2.2.2.2.2.2.1]; omega)
  unfold iblk
  rw [View.read_apply]
  refine (cast_eq _ _).trans ?_
  rw [e, V_win9 m c]
  exact HostArrays.w2h_at m c k j

/-- The second branch's second bias block, at every point, is the whole bias. -/
theorem read_b2h (c : Dev nD) (t : Fin cfg0.N) (k : Fin 128) :
    (iblk m c 10 t : Vec Ideal S128 .f32) (ix1 k) = (m ((c : Thread nD τ).loc main_arg12)) (ix1 k) := by
  have e : (((cfg0.win 10).blk t).view.emb (ix1 k) : S128.Idx) = ix1 k := funext fun ax => Fin.ext (by
    match ax with
    | ⟨0, _⟩ => show win0_10.index t (0 : Fin 1) * 128 + 1 * k.val = k.val; rw [(whole1 t).2.2.2.1]; omega)
  unfold iblk
  rw [View.read_apply]
  refine (cast_eq _ _).trans ?_
  rw [e, V_win10 m c]
  exact congrFun (V_main_arg12 m c) (ix1 k)

/-- The block of the last matrix's first column half, at every point, is that half transposed. -/
theorem read_wca (c : Dev nD) (t : Fin cfg0.N) (j d : Fin 128) :
    (iblk m c 11 t : Vec Ideal S128x128 .bf16) (ix2 j d) = (m ((c : Thread nD τ).loc main_arg13)) (ix2 d (Fin.castAdd 128 j)) := by
  have e : (((cfg0.win 11).blk t).view.emb (ix2 j d) : S128x128.Idx) = ix2 j d := funext fun ax => Fin.ext (by
    match ax with
    | ⟨0, _⟩ => show win0_11.index t (0 : Fin 2) * 128 + 1 * j.val = j.val; rw [(whole2 t).2.2.2.2.2.2.2.2.1]; omega
    | ⟨1, _⟩ => show win0_11.index t (1 : Fin 2) * 128 + 1 * d.val = d.val; rw [(whole2 t).2.2.2.2.2.2.2.2.2.1]; omega)
  unfold iblk
  rw [View.read_apply]
  refine (cast_eq _ _).trans ?_
  rw [e, V_win11 m c]
  exact HostArrays.wca_at m c j d

/-- The block of the last matrix's second column half, at every point, is that half transposed. -/
theorem read_wcb (c : Dev nD) (t : Fin cfg0.N) (j d : Fin 128) :
    (iblk m c 12 t : Vec Ideal S128x128 .bf16) (ix2 j d) = (m ((c : Thread nD τ).loc main_arg13)) (ix2 d (Fin.natAdd 128 j)) := by
  have e : (((cfg0.win 12).blk t).view.emb (ix2 j d) : S128x128.Idx) = ix2 j d := funext fun ax => Fin.ext (by
    match ax with
    | ⟨0, _⟩ => show win0_12.index t (0 : Fin 2) * 128 + 1 * j.val = j.val; rw [(whole2 t).2.2.2.2.2.2.2.2.2.2.1]; omega
    | ⟨1, _⟩ => show win0_12.index t (1 : Fin 2) * 128 + 1 * d.val = d.val; rw [(whole2 t).2.2.2.2.2.2.2.2.2.2.2]; omega)
  unfold iblk
  rw [View.read_apply]
  refine (cast_eq _ _).trans ?_
  rw [e, V_win12 m c]
  exact HostArrays.wcb_at m c j d

/-- The last bias block, at every point, is the whole bias. -/
theorem read_bc (c : Dev nD) (t : Fin cfg0.N) (k : Fin 128) :
    (iblk m c 13 t : Vec Ideal S128 .f32) (ix1 k) = (m ((c : Thread nD τ).loc main_arg14)) (ix1 k) := by
  have e : (((cfg0.win 13).blk t).view.emb (ix1 k) : S128.Idx) = ix1 k := funext fun ax => Fin.ext (by
    match ax with
    | ⟨0, _⟩ => show win0_13.index t (0 : Fin 1) * 128 + 1 * k.val = k.val; rw [(whole1 t).2.2.2.2]; omega)
  unfold iblk
  rw [View.read_apply]
  refine (cast_eq _ _).trans ?_
  rw [e, V_win13 m c]
  exact congrFun (V_main_arg14 m c) (ix1 k)

/-! ## The written block, the cover, and the run -/

/-- Entry (p, q) of the block point t writes back sits at row 4000·t + p of the result array. -/
theorem out_at (t : Fin cfg0.N) (p : Fin 4000) (q : Fin 128) (n : Fin 100000) (hn : n.val = t.val * 4000 + p.val) :
    (((cfg0.win 14).blk t).view.emb (ix2 p q) : S100000x128.Idx) = ix2 n q := funext fun ax => Fin.ext (by
  match ax with
  | ⟨0, _⟩ => show win0_14.index t (0 : Fin 2) * 4000 + 1 * p.val = n.val; rw [(rows t).2.2.2.2.2.2.1, hn]; omega
  | ⟨1, _⟩ => show win0_14.index t (1 : Fin 2) * 128 + 1 * q.val = q.val; rw [(rows t).2.2.2.2.2.2.2]; omega)

/-- The body's result for the output window is the stored block of the fourteen input blocks. -/
theorem out_eq_stored (x0 : Vec Ideal S4000x128 .f32) (x1 x2 : Vec Ideal S4000x128 .bf16) (x3 : Vec Ideal S128x128 .bf16)
    (x4 : Vec Ideal S128 .f32) (x5 : Vec Ideal S128x128 .bf16) (x6 : Vec Ideal S128 .f32) (x7 : Vec Ideal S128x128 .bf16)
    (x8 : Vec Ideal S128 .f32) (x9 : Vec Ideal S128x128 .bf16) (x10 : Vec Ideal S128 .f32) (x11 x12 : Vec Ideal S128x128 .bf16)
    (x13 : Vec Ideal S128 .f32) :
    out0_14 x0 x1 x2 x3 x4 x5 x6 x7 x8 x9 x10 x11 x12 x13 = BodyValue.stored x0 x1 x2 x3 x4 x5 x6 x7 x8 x9 x10 x11 x12 x13 := by
  unfold out0_14 BodyValue.stored
  rw [View.canon_unit_zero zero2]
  simp only [View.ld_unit_zero (S := S4000x128) zero2, View.ld_unit_zero (S := S128x128) zero2, View.ld_unit_zero (S := S128) zero1]

/-- What point t writes back is block t of `result`. -/
theorem flushed_eq (c : Dev nD) (t : Fin cfg0.N) :
    (dats m 0 c).flushed 14 t = ((cfg0.win 14).blk t).view.read (Elt Ideal) (result m c) := by
  rw [Value.flushed14, out_eq_stored]
  refine funext fun (j : S4000x128.Idx) => ?_
  obtain ⟨p, q, rfl⟩ : ∃ (p : Fin 4000) (q : Fin 128), j = ix2 p q := ⟨j 0, j 1, eq_ix2 j⟩
  have ht : t.val < 25 := Nat.lt_of_lt_of_eq t.isLt N_0
  obtain ⟨n, hn⟩ : ∃ n : Fin 100000, n.val = t.val * 4000 + p.val := ⟨⟨t.val * 4000 + p.val, by have := p.isLt; omega⟩, rfl⟩
  rw [View.read_apply]
  refine Eq.trans ?_ (cast_eq _ _).symm
  rw [out_at t p q n hn, result, G_ix2]
  show BodyValue.stored (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (ix2 p q) = _
  exact BodyValue.stored_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t)
    (m ((c : Thread nD τ).loc main_arg0)) (HostArrays.agg (m ((c : Thread nD τ).loc main_arg1)) (m ((c : Thread nD τ).loc main_arg2))) (HostArrays.aggHull (m ((c : Thread nD τ).loc main_arg3)) (m ((c : Thread nD τ).loc main_arg4)))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    n p q (fun l => read_v m c t p l n hn) (fun l => read_agg m c t p l n hn) (fun l => read_aggHull m c t p l n hn)
    (read_w1 m c t) (read_b1 m c t) (read_w2 m c t) (read_b2 m c t) (read_w1h m c t) (read_b1h m c t) (read_w2h m c t)
    (read_b2h m c t) (read_wca m c t) (read_wcb m c t) (read_bc m c t)

/-- An index of the result array is in point t's block iff each coordinate is in the block's range on its axis. -/
theorem mem_blk (t : Fin cfg0.N) (i : S100000x128.Idx) :
    i ∈ ((cfg0.win 14).blk t).view.set
      ↔ ∀ a : Fin 2, win0_14.index t a * S4000x128.size a ≤ (i a).val ∧ (i a).val < win0_14.index t a * S4000x128.size a + S4000x128.size a := by
  show i ∈ ((View.whole main_v26).slice (win0_14.rect t)).set ↔ _
  rw [View.set_slice_whole, Rect.mem_set_unit]
  exact Iff.rfl

/-- Every row lies in the block of the point whose number is the row divided by 4000. -/
theorem covered (i : S100000x128.Idx) :
    ∃ t : Fin cfg0.N, (cfg0.win 14).flush t = true ∧ i ∈ ((cfg0.win 14).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, Nat.lt_of_lt_of_eq (show (i 0).val / 4000 < 25 by omega) N_0.symm⟩, rfl⟩
  refine ⟨t, flush0_14 t, ?_⟩
  rw [mem_blk]
  intro a
  match a with
  | ⟨0, _⟩ =>
    show win0_14.index t (0 : Fin 2) * 4000 ≤ (i 0).val ∧ (i 0).val < win0_14.index t (0 : Fin 2) * 4000 + 4000
    rw [(rows t).2.2.2.2.2.2.1, ht]; omega
  | ⟨1, _⟩ =>
    show win0_14.index t (1 : Fin 2) * 128 ≤ (i 1).val ∧ (i 1).val < win0_14.index t (1 : Fin 2) * 128 + 128
    rw [(rows t).2.2.2.2.2.2.2]; omega

/-- The result array after the run is `result`. -/
theorem final (c : Dev nD) : (dats m 0 c).arrAt 14 cfg0.N = result m c :=
  (dats m 0 c).arrAt_eq_of_cover 14 (result m c) (fun t _ => flushed_eq m c t) covered

/-- The kernel's run: the result array ends at `result`, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.KernelValue

end
-- ==== Proof.RefValue.lean ====
/-
  The reference, entry by entry, is the node update.

  The reference computes each branch on whole arrays: a product of the aggregated array with a transposed weight
  matrix, a bias laid over all rows, the shifted softplus, a second product and bias; it lays the two branches' results
  side by side, multiplies by the transposed [128, 256] matrix, adds the last bias, applies the shifted softplus and
  adds the node features. Read at entry (n, c): every product is a sum over its contracted coordinate, every transpose
  swaps the two coordinates, and the contraction over the 256 side-by-side coordinates is the sum of a contraction over
  the first branch's 128 and one over the second's. The two aggregated arrays are kept as they are: nothing here looks
  inside them.
-/
import proofs.«129589_j6975026889058_2_alg».proof.Proof.Gen.ReferenceIdeal.Read
import proofs.«129589_j6975026889058_2_alg».proof.Proof.NodeUpdate
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.ValueIdx Cert.NodeUpdate

/-- Two indices of a rank-two shape with the same coordinate values are equal. -/
local macro "coords2" : term => `(funext fun a => Fin.ext (by match a with | ⟨0, _⟩ => rfl | ⟨1, _⟩ => rfl))
/-- The same at rank one. -/
local macro "coords1" : term => `(funext fun a => Fin.ext (by match a with | ⟨0, _⟩ => rfl))

theorem layer_def {K C : Nat} (W : Fin K → Fin C → EReal) (b : Fin C → EReal) (x : Fin K → EReal) (c : Fin C) :
    layer W b x c = (∑ k : Fin K, x k * W k c) + b c := rfl

/-- The reference's activation over any pre-activation array `y`: its maximum, difference, comparison, absolute value,
    negation, exponential, log1p, selection and the subtraction of the constant, read at an entry, are the shifted
    softplus of that entry. -/
theorem sspArray (y : (⟨S100000x128, .f32⟩ : BufTy).Contents (Elt Ideal)) (i : S100000x128.Idx) :
    (subf (select
        (cmpf .une (subf y (broadcastInDim S100000x128 ![] bcast_S_S100000x128 (constant (F := Ideal) S_ .f32 0x00000000#32)))
          (subf y (broadcastInDim S100000x128 ![] bcast_S_S100000x128 (constant (F := Ideal) S_ .f32 0x00000000#32))))
        (addf y (broadcastInDim S100000x128 ![] bcast_S_S100000x128 (constant (F := Ideal) S_ .f32 0x00000000#32)))
        (addf (maximumf y (broadcastInDim S100000x128 ![] bcast_S_S100000x128 (constant (F := Ideal) S_ .f32 0x00000000#32)))
          (Host.log1p (Host.exp (Host.negf (Host.absf
            (subf y (broadcastInDim S100000x128 ![] bcast_S_S100000x128 (constant (F := Ideal) S_ .f32 0x00000000#32)))))))))
      (broadcastInDim S100000x128 ![] bcast_S_S100000x128 (constant (F := Ideal) S_ .f32 0x3F317218#32))
      : (⟨S100000x128, .f32⟩ : BufTy).Contents (Elt Ideal)) i
      = ssp (y i) :=
  Eq.trans rfl (ssp_neg_form (y i))

/-! ## The first branch -/

/-- The first branch's first layer at (n, k). -/
theorem pre1 (x1 : (⟨S1600000x128, .f32⟩ : BufTy).Contents (Elt Ideal)) (x2 : (⟨S2x1600000, .i32⟩ : BufTy).Contents (Elt Ideal)) (x5 : (⟨S128x128, .f32⟩ : BufTy).Contents (Elt Ideal)) (x6 : (⟨S128, .f32⟩ : BufTy).Contents (Elt Ideal)) (n : Fin 100000) (k : Fin 128) :
    val_main_v9 (F := Ideal) x1 x2 x5 x6 (ix2 n k)
      = layer (fun l k => x5 (ix2 k l)) (fun k => x6 (ix1 k)) (fun l => val_main_v4 (F := Ideal) x1 x2 (ix2 n l)) k := by
  rw [val_main_v9_apply, val_main_v6_apply, val_main_v8_apply, val_main_v7_apply, layer_def, Ideal.addf_def]
  refine congrArg₂ (· + ·) (Finset.sum_congr rfl fun l _ => ?_) (congrArg x6 coords1)
  rw [val_main_v5_apply, show lidx_main_v6 (ix2 n k) l = ix2 n l from coords2,
    show idx_main_v5 (ridx_main_v6 (ix2 n k) l) = ix2 k l from coords2]

/-- The first branch's activation is the shifted softplus of its first layer, entry by entry. -/
theorem act1 (x1 : (⟨S1600000x128, .f32⟩ : BufTy).Contents (Elt Ideal)) (x2 : (⟨S2x1600000, .i32⟩ : BufTy).Contents (Elt Ideal)) (x5 : (⟨S128x128, .f32⟩ : BufTy).Contents (Elt Ideal)) (x6 : (⟨S128, .f32⟩ : BufTy).Contents (Elt Ideal)) (i : S100000x128.Idx) :
    val_main_v12 (F := Ideal) x1 x2 x5 x6 i = ssp (val_main_v9 (F := Ideal) x1 x2 x5 x6 i) :=
  sspArray (val_main_v9 (F := Ideal) x1 x2 x5 x6) i

/-- The first branch at (n, j). -/
theorem out1 (x1 : (⟨S1600000x128, .f32⟩ : BufTy).Contents (Elt Ideal)) (x2 : (⟨S2x1600000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (n : Fin 100000) (j : Fin 128) :
    val_main_v17 (F := Ideal) x1 x2 x5 x6 x7 x8 (ix2 n j)
      = branch (fun l k => x5 (ix2 k l)) (fun k => x6 (ix1 k)) (fun k j => x7 (ix2 j k)) (fun j => x8 (ix1 j))
          (fun l => val_main_v4 (F := Ideal) x1 x2 (ix2 n l)) j := by
  rw [val_main_v17_apply, val_main_v14_apply, val_main_v16_apply, val_main_v15_apply, branch, layer_def, Ideal.addf_def]
  refine congrArg₂ (· + ·) (Finset.sum_congr rfl fun k _ => ?_) (congrArg x8 coords1)
  rw [val_main_v13_apply, show lidx_main_v14 (ix2 n j) k = ix2 n k from coords2,
    show idx_main_v13 (ridx_main_v14 (ix2 n j) k) = ix2 j k from coords2, act1, pre1]

/-! ## The second branch -/

/-- The second branch's first layer at (n, k). -/
theorem pre2 (x3 : (⟨S400000x128, .f32⟩ : BufTy).Contents (Elt Ideal)) (x4 : (⟨S2x400000, .i32⟩ : BufTy).Contents (Elt Ideal)) (x9 : (⟨S128x128, .f32⟩ : BufTy).Contents (Elt Ideal)) (x10 : (⟨S128, .f32⟩ : BufTy).Contents (Elt Ideal)) (n : Fin 100000) (k : Fin 128) :
    val_main_v27 (F := Ideal) x3 x4 x9 x10 (ix2 n k)
      = layer (fun l k => x9 (ix2 k l)) (fun k => x10 (ix1 k)) (fun l => val_main_v22 (F := Ideal) x3 x4 (ix2 n l)) k := by
  rw [val_main_v27_apply, val_main_v24_apply, val_main_v26_apply, val_main_v25_apply, layer_def, Ideal.addf_def]
  refine congrArg₂ (· + ·) (Finset.sum_congr rfl fun l _ => ?_) (congrArg x10 coords1)
  rw [val_main_v23_apply, show lidx_main_v24 (ix2 n k) l = ix2 n l from coords2,
    show idx_main_v23 (ridx_main_v24 (ix2 n k) l) = ix2 k l from coords2]

/-- The second branch's activation is the shifted softplus of its first layer, entry by entry. -/
theorem act2 (x3 : (⟨S400000x128, .f32⟩ : BufTy).Contents (Elt Ideal)) (x4 : (⟨S2x400000, .i32⟩ : BufTy).Contents (Elt Ideal)) (x9 : (⟨S128x128, .f32⟩ : BufTy).Contents (Elt Ideal)) (x10 : (⟨S128, .f32⟩ : BufTy).Contents (Elt Ideal)) (i : S100000x128.Idx) :
    val_main_v30 (F := Ideal) x3 x4 x9 x10 i = ssp (val_main_v27 (F := Ideal) x3 x4 x9 x10 i) :=
  sspArray (val_main_v27 (F := Ideal) x3 x4 x9 x10) i

/-- The second branch at (n, j). -/
theorem out2 (x3 : (⟨S400000x128, .f32⟩ : BufTy).Contents (Elt Ideal)) (x4 : (⟨S2x400000, .i32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (n : Fin 100000) (j : Fin 128) :
    val_main_v35 (F := Ideal) x3 x4 x9 x10 x11 x12 (ix2 n j)
      = branch (fun l k => x9 (ix2 k l)) (fun k => x10 (ix1 k)) (fun k j => x11 (ix2 j k)) (fun j => x12 (ix1 j))
          (fun l => val_main_v22 (F := Ideal) x3 x4 (ix2 n l)) j := by
  rw [val_main_v35_apply, val_main_v32_apply, val_main_v34_apply, val_main_v33_apply, branch, layer_def, Ideal.addf_def]
  refine congrArg₂ (· + ·) (Finset.sum_congr rfl fun k _ => ?_) (congrArg x12 coords1)
  rw [val_main_v31_apply, show lidx_main_v32 (ix2 n j) k = ix2 n k from coords2,
    show idx_main_v31 (ridx_main_v32 (ix2 n j) k) = ix2 j k from coords2, act2, pre2]

/-! ## The two branches side by side, and the last layer -/

/-- The side-by-side array at a coordinate among the first 128 is the first branch there. -/
theorem sideBySide_left (x1 : (⟨S1600000x128, .f32⟩ : BufTy).Contents (Elt Ideal)) (x2 : (⟨S2x1600000, .i32⟩ : BufTy).Contents (Elt Ideal)) (x3 : (⟨S400000x128, .f32⟩ : BufTy).Contents (Elt Ideal)) (x4 : (⟨S2x400000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (n : Fin 100000) (j : Fin 128) :
    val_main_v36 (F := Ideal) x1 x2 x3 x4 x5 x6 x7 x8 x9 x10 x11 x12 (ix2 n (Fin.castAdd 128 j)) = val_main_v17 (F := Ideal) x1 x2 x5 x6 x7 x8 (ix2 n j) := by
  unfold val_main_v36
  exact concatenate_pair_apply_left 1 _ _ concatenates_S100000x128_S100000x128_S100000x256_d1 _ rfl (ix2 n j)
    (fun b => match b with | ⟨0, _⟩ => rfl | ⟨1, _⟩ => rfl)

/-- The side-by-side array at a coordinate among the last 128 is the second branch there. -/
theorem sideBySide_right (x1 : (⟨S1600000x128, .f32⟩ : BufTy).Contents (Elt Ideal)) (x2 : (⟨S2x1600000, .i32⟩ : BufTy).Contents (Elt Ideal)) (x3 : (⟨S400000x128, .f32⟩ : BufTy).Contents (Elt Ideal)) (x4 : (⟨S2x400000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (n : Fin 100000) (j : Fin 128) :
    val_main_v36 (F := Ideal) x1 x2 x3 x4 x5 x6 x7 x8 x9 x10 x11 x12 (ix2 n (Fin.natAdd 128 j)) = val_main_v35 (F := Ideal) x3 x4 x9 x10 x11 x12 (ix2 n j) := by
  unfold val_main_v36
  exact concatenate_pair_apply_right 1 _ _ concatenates_S100000x128_S100000x128_S100000x256_d1 _ rfl rfl (ix2 n j)
    (fun b hb => match b with | ⟨0, _⟩ => rfl | ⟨1, _⟩ => absurd rfl hb)
    (by show j.val + 128 = 128 + j.val; omega)

/-- The last layer's pre-activation at (n, c): the contraction over the 256 side-by-side coordinates is the two
    branches' contractions added. -/
theorem pre3 (x1 : (⟨S1600000x128, .f32⟩ : BufTy).Contents (Elt Ideal)) (x2 : (⟨S2x1600000, .i32⟩ : BufTy).Contents (Elt Ideal)) (x3 : (⟨S400000x128, .f32⟩ : BufTy).Contents (Elt Ideal)) (x4 : (⟨S2x400000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x256, .f32⟩ : BufTy).Contents (Elt Ideal)) (x14 : (⟨S128, .f32⟩ : BufTy).Contents (Elt Ideal)) (n : Fin 100000) (c : Fin 128) :
    val_main_v41 (F := Ideal) x1 x2 x3 x4 x5 x6 x7 x8 x9 x10 x11 x12 x13 x14 (ix2 n c)
      = joined (fun j c => x13 (ix2 c (Fin.castAdd 128 j))) (fun j c => x13 (ix2 c (Fin.natAdd 128 j))) (fun c => x14 (ix1 c))
          (branch (fun l k => x5 (ix2 k l)) (fun k => x6 (ix1 k)) (fun k j => x7 (ix2 j k)) (fun j => x8 (ix1 j))
            (fun l => val_main_v4 (F := Ideal) x1 x2 (ix2 n l)))
          (branch (fun l k => x9 (ix2 k l)) (fun k => x10 (ix1 k)) (fun k j => x11 (ix2 j k)) (fun j => x12 (ix1 j))
            (fun l => val_main_v22 (F := Ideal) x3 x4 (ix2 n l))) c := by
  rw [val_main_v41_apply, val_main_v38_apply, val_main_v40_apply, val_main_v39_apply, Ideal.addf_def]
  unfold joined
  refine congrArg₂ (· + ·) ?_ (congrArg x14 coords1)
  refine (sum_sideBySide (A := 128) (B := 128) _).trans ?_
  refine congrArg₂ (· + ·) (Finset.sum_congr rfl fun j _ => ?_) (Finset.sum_congr rfl fun j _ => ?_)
  · rw [val_main_v37_apply, show lidx_main_v38 (ix2 n c) (Fin.castAdd 128 j) = ix2 n (Fin.castAdd 128 j) from coords2,
      show idx_main_v37 (ridx_main_v38 (ix2 n c) (Fin.castAdd 128 j)) = ix2 c (Fin.castAdd 128 j) from coords2,
      sideBySide_left, out1]
  · rw [val_main_v37_apply, show lidx_main_v38 (ix2 n c) (Fin.natAdd 128 j) = ix2 n (Fin.natAdd 128 j) from coords2,
      show idx_main_v37 (ridx_main_v38 (ix2 n c) (Fin.natAdd 128 j)) = ix2 c (Fin.natAdd 128 j) from coords2,
      sideBySide_right, out2]

/-- The last activation is the shifted softplus of the last layer, entry by entry. -/
theorem act3 (x1 : (⟨S1600000x128, .f32⟩ : BufTy).Contents (Elt Ideal)) (x2 : (⟨S2x1600000, .i32⟩ : BufTy).Contents (Elt Ideal)) (x3 : (⟨S400000x128, .f32⟩ : BufTy).Contents (Elt Ideal)) (x4 : (⟨S2x400000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x256, .f32⟩ : BufTy).Contents (Elt Ideal)) (x14 : (⟨S128, .f32⟩ : BufTy).Contents (Elt Ideal)) (i : S100000x128.Idx) :
    val_main_v44 (F := Ideal) x1 x2 x3 x4 x5 x6 x7 x8 x9 x10 x11 x12 x13 x14 i = ssp (val_main_v41 (F := Ideal) x1 x2 x3 x4 x5 x6 x7 x8 x9 x10 x11 x12 x13 x14 i) :=
  sspArray (val_main_v41 (F := Ideal) x1 x2 x3 x4 x5 x6 x7 x8 x9 x10 x11 x12 x13 x14) i

/-- The reference's result array is the node update of the node features, the two aggregated arrays as the reference
    computes them, and the weights. -/
theorem result_eq (x0 : (⟨S100000x128, .f32⟩ : BufTy).Contents (Elt Ideal)) (x1 : (⟨S1600000x128, .f32⟩ : BufTy).Contents (Elt Ideal)) (x2 : (⟨S2x1600000, .i32⟩ : BufTy).Contents (Elt Ideal)) (x3 : (⟨S400000x128, .f32⟩ : BufTy).Contents (Elt Ideal)) (x4 : (⟨S2x400000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x256, .f32⟩ : BufTy).Contents (Elt Ideal)) (x14 : (⟨S128, .f32⟩ : BufTy).Contents (Elt Ideal)) :
    val_main_v45 (F := Ideal) x0 x1 x2 x3 x4 x5 x6 x7 x8 x9 x10 x11 x12 x13 x14
      = G x0 (val_main_v4 (F := Ideal) x1 x2) (val_main_v22 (F := Ideal) x3 x4) x5 x6 x7 x8 x9 x10 x11 x12 x13 x14 := by
  funext i
  obtain ⟨n, c, rfl⟩ : ∃ (n : Fin 100000) (c : Fin 128), i = ix2 n c := ⟨i 0, i 1, eq_ix2 i⟩
  rw [G_ix2, val_main_v45_apply, act3, pre3, Ideal.addf_def]
  rfl

end Cert.ReferenceIdeal.RefValue

end
-- ==== Proof.SameAggregate.lean ====
/-
  The two programs aggregate the edges the same way.

  Both programs build each aggregated array by the same scatter-add: zeros, indexed by the second row of the edge-index
  array made a column, updated by the edge rows. The two printed programs each carry their own copy of the scatter's
  dimension numbers and of the layout facts, with the same contents, so the two terms are one term; nothing here
  evaluates the scatter-add.
-/
import proofs.«129589_j6975026889058_2_alg».proof.Proof.Gen.ReferenceIdeal.Read
import proofs.«129589_j6975026889058_2_alg».proof.Proof.HostArrays

noncomputable section

namespace Cert.SameAggregate

open Idealize.ShloMosaic

/-- The reference's first aggregated array is the kernel program's, as functions of the edge rows and edge indices. -/
theorem first (e : (⟨Cert.ReferenceIdeal.S1600000x128, .f32⟩ : BufTy).Contents (Elt Ideal))
    (ei : (⟨Cert.ReferenceIdeal.S2x1600000, .i32⟩ : BufTy).Contents (Elt Ideal)) :
    Cert.ReferenceIdeal.Read.val_main_v4 (F := Ideal) e ei = Cert.KernelIdeal.HostArrays.agg e ei := by
  unfold Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.KernelIdeal.HostArrays.agg
  rfl

/-- The reference's second aggregated array is the kernel program's. -/
theorem second (e : (⟨Cert.ReferenceIdeal.S400000x128, .f32⟩ : BufTy).Contents (Elt Ideal))
    (ei : (⟨Cert.ReferenceIdeal.S2x400000, .i32⟩ : BufTy).Contents (Elt Ideal)) :
    Cert.ReferenceIdeal.Read.val_main_v22 (F := Ideal) e ei = Cert.KernelIdeal.HostArrays.aggHull e ei := by
  unfold Cert.ReferenceIdeal.Read.val_main_v22 Cert.ReferenceIdeal.Read.val_main_v21 Cert.ReferenceIdeal.Read.val_main_v20
    Cert.ReferenceIdeal.Read.val_main_v19 Cert.ReferenceIdeal.Read.val_main_v18 Cert.ReferenceIdeal.Read.val_main_cst_1
    Cert.KernelIdeal.HostArrays.aggHull
  rfl

end Cert.SameAggregate

end
-- ==== Proof.lean ====
/-
  The certificate of the node-update kernel against its reference.

  The kernel program aggregates the two edge sets onto the 100000 nodes on the host and runs, over 25 grid points of
  4000 node rows each, two two-layer branches with a shifted softplus between their layers, multiplies each branch by
  its half of the last [128, 256] weight matrix, adds the two products and the last bias, applies the shifted softplus
  and adds the node features. The reference does the same on whole arrays, laying the two branches side by side and
  multiplying once by the whole last matrix. On the extended reals the roundings to the narrower format are the
  identity and a contraction over two rows laid side by side is the sum of the two rows' contractions, so both
  programs' result arrays are one function of the arguments, the node update `Cert.NodeUpdate.G` of the node features,
  the two aggregated arrays and the weights. The law uses only commutativity and associativity of addition, so the
  inputs' finiteness is never used.

  The three frames are the programs' generated runs; the idealization rewrote no operation, so there is nothing to
  preserve.
-/
import proofs.«129589_j6975026889058_2_alg».proof.Defs
import proofs.«129589_j6975026889058_2_alg».proof.Proof.Gen.Kernel
import proofs.«129589_j6975026889058_2_alg».proof.Proof.Gen.Kernel.Skeleton
import proofs.«129589_j6975026889058_2_alg».proof.Proof.Gen.Kernel.Launch
import proofs.«129589_j6975026889058_2_alg».proof.Proof.Gen.Kernel.Points
import proofs.«129589_j6975026889058_2_alg».proof.Proof.Gen.Kernel.Frame
import proofs.«129589_j6975026889058_2_alg».proof.Proof.Gen.KernelIdeal
import proofs.«129589_j6975026889058_2_alg».proof.Proof.Gen.KernelIdeal.Skeleton
import proofs.«129589_j6975026889058_2_alg».proof.Proof.Gen.KernelIdeal.Launch
import proofs.«129589_j6975026889058_2_alg».proof.Proof.Gen.KernelIdeal.Points
import proofs.«129589_j6975026889058_2_alg».proof.Proof.Gen.KernelIdeal.Frame
import proofs.«129589_j6975026889058_2_alg».proof.Proof.Gen.ReferenceIdeal
import proofs.«129589_j6975026889058_2_alg».proof.Proof.Gen.Pre_finite_inputs
import proofs.«129589_j6975026889058_2_alg».proof.Proof.Gen.KernelIdeal.Value
import proofs.«129589_j6975026889058_2_alg».proof.Proof.Gen.ReferenceIdeal.Run
import proofs.«129589_j6975026889058_2_alg».proof.Proof.Gen.ReferenceIdeal.Read
import proofs.«129589_j6975026889058_2_alg».proof.Proof.KernelValue
import proofs.«129589_j6975026889058_2_alg».proof.Proof.RefValue
import proofs.«129589_j6975026889058_2_alg».proof.Proof.SameAggregate
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the kernel's result array ends at the node update of its arguments (the
    blocks-to-array leg) and the reference's at the node update of its own (its run, read entry by entry); the
    arguments agree and the two programs aggregate the edges by one term, so the two arrays are equal. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, a3, a4, a5, a6, a7, a8, a9, a10, a11, a12, a13, a14⟩ := hagree c
  rw [Cert.ReferenceIdeal.Read.val_main_v45_eq, Cert.ReferenceIdeal.RefValue.result_eq, Cert.SameAggregate.first, Cert.SameAggregate.second,
    a0, a1, a2, a3, a4, a5, a6, a7, a8, a9, a10, a11, a12, a13, a14]
  rfl

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, Claims.preserves, Claims.algebraic⟩

end Cert.Proof

end
